-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S32x3x1x128 : Shape := ⟨4, ![32, 3, 1, 128]⟩
abbrev S1x1x512x512 : Shape := ⟨4, ![1, 1, 512, 512]⟩
abbrev S1x1x1x128 : Shape := ⟨4, ![1, 1, 1, 128]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x512 : Shape := ⟨2, ![1, 512]⟩
abbrev S1x128 : Shape := ⟨2, ![1, 128]⟩
abbrev S32x3x1x1 : Shape := ⟨4, ![32, 3, 1, 1]⟩
abbrev S32x3 : Shape := ⟨2, ![32, 3]⟩
abbrev S_ : Shape := ⟨0, ![]⟩
abbrev S32 : Shape := ⟨1, ![32]⟩

abbrev nBuf : Space → Nat
  | .hbm => 44
  | .vmem => 6
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S32x3x1x128, .f32⟩
  | .hbm, ⟨3, _⟩ => ⟨S32x3x1x1, .f32⟩
  | .hbm, ⟨4, _⟩ => ⟨S32x3, .f32⟩
  | .hbm, ⟨5, _⟩ => ⟨S32x3x1x1, .f32⟩
  | .hbm, ⟨6, _⟩ => ⟨S32x3, .f32⟩
  | .hbm, ⟨7, _⟩ => ⟨S32x3x1x1, .f32⟩
  | .hbm, ⟨8, _⟩ => ⟨S32x3, .f32⟩
  | .hbm, ⟨9, _⟩ => ⟨S32x3x1x1, .f32⟩
  | .hbm, ⟨10, _⟩ => ⟨S32x3, .f32⟩
  | .hbm, ⟨11, _⟩ => ⟨S_, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x1x128, .f32⟩
  | .local _ .vmem, ⟨5, _⟩ => ⟨S1x1x1x128, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩
abbrev main_cst_11 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 3], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  transposes_S512x1_p1_0_S1x512 : S512x1.Transposes [1, 0] S1x512
  broadcasts_S512x1_S512x512 : S512x1.Broadcasts S512x512
  broadcasts_S1x512_S512x512 : S1x512.Broadcasts S512x512
  reduces_S512x512_S512_2 : S512x512.Reduces [0] S512
  shapeCasts_S512_S1x512 : S512.ShapeCasts S1x512
  reduces_S1x512_S1 : S1x512.Reduces [1] S1
  iota_S1x128_d1_w32 : S1x128.Iotas .tc 32 [1]
  shapeCasts_S1x1_S1x1 : S1x1.ShapeCasts S1x1
  broadcasts_S1x1_S1x128 : S1x1.Broadcasts S1x128
  inb_S1x1x1x128_S1x1x1x128_0_0_0_0 : ∀ a, (![0, 0, 0, 0] : Fin 4 → Nat) a + S1x1x1x128.size a ≤ S1x1x1x128.size a
  h_S1x1x1x128 : 0 < S1x1x1x128.numel
  shapeCasts_S1x1x1x128_S1x128 : S1x1x1x128.ShapeCasts S1x128
  shapeCasts_S1x128_S1x1x1x128 : S1x128.ShapeCasts S1x1x1x128
  slices_S32x3x1x128_S32x3x1x1_0_0_0_0 : S32x3x1x128.Slices ![0, 0, 0, 0] S32x3x1x1
  shapeCasts_S32x3x1x1_S32x3 : S32x3x1x1.ShapeCasts S32x3
  slices_S32x3x1x128_S32x3x1x1_0_0_0_1 : S32x3x1x128.Slices ![0, 0, 0, 1] S32x3x1x1
  slices_S32x3x1x128_S32x3x1x1_0_0_0_2 : S32x3x1x128.Slices ![0, 0, 0, 2] S32x3x1x1
  slices_S32x3x1x128_S32x3x1x1_0_0_0_3 : S32x3x1x128.Slices ![0, 0, 0, 3] S32x3x1x1
  reducesTo_S32x3_S32_d1 : S32x3.ReducesTo [1] S32
  h_S_ : 0 < S_.numel
  bcast_S_S32 : S_.BroadcastsInDim S32 (![] : Fin 0 → Fin S32.rank)
  reducesTo_S32_S_d0 : S32.ReducesTo [0] S_
  reducesTo_S32x3_S_d0_1 : S32x3.ReducesTo [0, 1] S_
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S32x3x512x512.size a
  hwx0_0 : ∀ i : grid0.Coords, EltTy.bits .f32 = 32 ∨ (Rect.block (s := S32x3x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S32x3x512x512.size a
  hwx0_1 : ∀ i : grid0.Coords, EltTy.bits .f32 = 32 ∨ (Rect.block (s := S32x3x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x128.size a ≤ S32x3x1x128.size a
  hwx0_2 : ∀ i : grid0.Coords, EltTy.bits .f32 = 32 ∨ (Rect.block (s := S32x3x1x128) S1x1x1x128.size (cc0_transform_2 i) (hinb0_2 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S32x786432 : Shape := ⟨2, ![32, 786432]⟩
abbrev S_ : Shape := ⟨0, ![]⟩
abbrev S32 : Shape := ⟨1, ![32]⟩
abbrev S32x3x512 : Shape := ⟨3, ![32, 3, 512]⟩
abbrev S32x3x512x1 : Shape := ⟨4, ![32, 3, 512, 1]⟩
abbrev S32x3x1x512 : Shape := ⟨4, ![32, 3, 1, 512]⟩
abbrev S32x3 : Shape := ⟨2, ![32, 3]⟩

abbrev nBuf : Space → Nat
  | .hbm => 67
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S32x786432, .f32⟩
  | .hbm, ⟨3, _⟩ => ⟨S32x786432, .f32⟩
  | .hbm, ⟨4, _⟩ => ⟨S32x786432, .f32⟩
  | .hbm, ⟨5, _⟩ => ⟨S_, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S32x3x512x512, .f32⟩
  | .hbm, ⟨30, _⟩ => ⟨S_, .f32⟩
  | .hbm, ⟨31, _⟩ => ⟨S32x3x512, .f32⟩
  | .hbm, ⟨32, _⟩ => ⟨S32x3x512x512, .f32⟩
  | .hbm, ⟨33, _⟩ => ⟨S_, .f32⟩
  | .hbm, ⟨34, _⟩ => ⟨S32x3x512, .f32⟩
  | .hbm, ⟨35, _⟩ => ⟨S32x3x512x512, .f32⟩
  | .hbm, ⟨36, _⟩ => ⟨S32x3x512x1, .f32⟩
  | .hbm, ⟨37, _⟩ => ⟨S32x3x1x512, .f32⟩
  | .hbm, ⟨38, _⟩ => ⟨S32x3x512x512, .f32⟩
  | .hbm, ⟨39, _⟩ => ⟨S32x3x512x512, .f32⟩
  | .hbm, ⟨40, _⟩ => ⟨S32x3x512x512, .f32⟩
  | .hbm, ⟨41, _⟩ => ⟨S_, .f32⟩
  | .hbm, ⟨42, _⟩ => ⟨S32x3x512x512, .f32⟩
  | .hbm, ⟨43, _⟩ => ⟨S32x3x512x512, .f32⟩
  | .hbm, ⟨44, _⟩ => ⟨S32x3x512x512, .f32⟩
  | .hbm, ⟨45, _⟩ => ⟨S_, .f32⟩
  | .hbm, ⟨46, _⟩ => ⟨S32x3x512x512, .f32⟩
  | .hbm, ⟨47, _⟩ => ⟨S32x3x512x512, .f32⟩
  | .hbm, ⟨48, _⟩ => ⟨S32x3x512x512, .f32⟩
  | .hbm, ⟨49, _⟩ => ⟨S_, .f32⟩
  | .hbm, ⟨50, _⟩ => ⟨S32x3x512, .f32⟩
  | .hbm, ⟨51, _⟩ => ⟨S_, .f32⟩
  | .hbm, ⟨52, _⟩ => ⟨S32x3, .f32⟩
  | .hbm, ⟨53, _⟩ => ⟨S_, .f32⟩
  | .hbm, ⟨54, _⟩ => ⟨S32x3x512, .f32⟩
  | .hbm, ⟨55, _⟩ => ⟨S_, .f32⟩
  | .hbm, ⟨56, _⟩ => ⟨S32x3, .f32⟩
  | .hbm, ⟨57, _⟩ => ⟨S32x3, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_v20 : Ref sig .tc := ⟨.hbm, 32, rfl⟩
abbrev main_cst_9 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_10 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_11 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_12 : Ref sig .tc := ⟨.hbm, 49, rfl⟩
abbrev main_v34 : Ref sig .tc := ⟨.hbm, 50, rfl⟩
abbrev main_cst_13 : Ref sig .tc := ⟨.hbm, 51, rfl⟩
abbrev main_v35 : Ref sig .tc := ⟨.hbm, 52, rfl⟩
abbrev main_cst_14 : Ref sig .tc := ⟨.hbm, 53, rfl⟩
abbrev main_v36 : Ref sig .tc := ⟨.hbm, 54, rfl⟩
abbrev main_cst_15 : Ref sig .tc := ⟨.hbm, 55, rfl⟩
abbrev main_v37 : Ref sig .tc := ⟨.hbm, 56, rfl⟩
abbrev main_v38 : Ref sig .tc := ⟨.hbm, 57, rfl⟩
abbrev main_cst_16 : Ref sig .tc := ⟨.hbm, 58, rfl⟩
abbrev main_v39 : Ref sig .tc := ⟨.hbm, 59, rfl⟩
abbrev main_cst_17 : Ref sig .tc := ⟨.hbm, 60, rfl⟩
abbrev main_v40 : Ref sig .tc := ⟨.hbm, 61, rfl⟩
abbrev main_cst_18 : Ref sig .tc := ⟨.hbm, 62, rfl⟩
abbrev main_v41 : Ref sig .tc := ⟨.hbm, 63, rfl⟩
abbrev main_cst_19 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]

class Facts₀ : Prop where
  shapeCasts_S32x3x512x512_S32x786432 : S32x3x512x512.ShapeCasts S32x786432
  reducesTo_S32x786432_S32_d1 : S32x786432.ReducesTo [1] S32
  h_S_ : 0 < S_.numel
  bcast_S_S32 : S_.BroadcastsInDim S32 (![] : Fin 0 → Fin S32.rank)
  reducesTo_S32_S_d0 : S32.ReducesTo [0] S_
  reducesTo_S32x3x512x512_S32x3x512_d3 : S32x3x512x512.ReducesTo [3] S32x3x512
  bcast_S32x3x512_S32x3x512x1_0_1_2 : S32x3x512.BroadcastsInDim S32x3x512x1 (![0, 1, 2] : Fin 3 → Fin S32x3x512x1.rank)
  bcast_S32x3x512_S32x3x1x512_0_1_3 : S32x3x512.BroadcastsInDim S32x3x1x512 (![0, 1, 3] : Fin 3 → Fin S32x3x1x512.rank)
  bcast_S32x3x512x1_S32x3x512x512_0_1_2_3 : S32x3x512x1.BroadcastsInDim S32x3x512x512 (![0, 1, 2, 3] : Fin 4 → Fin S32x3x512x512.rank)
  bcast_S32x3x1x512_S32x3x512x512_0_1_2_3 : S32x3x1x512.BroadcastsInDim S32x3x512x512 (![0, 1, 2, 3] : Fin 4 → Fin S32x3x512x512.rank)
  bcast_S_S32x3x512x512 : S_.BroadcastsInDim S32x3x512x512 (![] : Fin 0 → Fin S32x3x512x512.rank)
  reducesTo_S32x3x512_S32x3_d2 : S32x3x512.ReducesTo [2] S32x3
  reducesTo_S32x3x512x512_S32x3x512_d2 : S32x3x512x512.ReducesTo [2] S32x3x512
  reducesTo_S32x3_S_d0_1 : S32x3.ReducesTo [0, 1] S_
  dot_S32x3x512x512_S32x3x512x512_S32x3x512x512_3_3_2_2_01_01_wf : DotDims.WF S32x3x512x512 S32x3x512x512 S32x3x512x512 [3] [3] [2] [2] [0, 1] [0, 1]

variable [Facts₀]

def dot_S32x3x512x512_S32x3x512x512_S32x3x512x512_3_3_2_2_01_01 : DotDims S32x3x512x512 S32x3x512x512 S32x3x512x512 where
  lhsContracting := [3]
  rhsContracting := [3]
  lhsNonContracting := [2]
  rhsNonContracting := [2]
  lhsBatch := [0, 1]
  rhsBatch := [0, 1]
  wf := dot_S32x3x512x512_S32x3x512x512_S32x3x512x512_3_3_2_2_01_01_wf

class Facts : Prop extends Facts₀ where

variable [Facts]
-- ==== Proof.Spec.lean ====
/-
  The loss both programs compute, as mathematics over the extended reals.

  For a batch entry `b` and a channel `c` the arrays' `(b, c)` slabs are two 512 × 512 matrices `X`, `Y` whose ROWS are
  points of a 512-dimensional space. Four numbers are taken of a pair of slabs: the sum of the entrywise products
  (`mInter`), each matrix's total (`mTot`), and the symmetric Hausdorff distance between the two sets of rows (`mHd`),
  the distance between row `i` of `X` and row `j` of `Y` being taken through the expansion
  `‖x‖² + ‖y‖² − 2⟨x, y⟩`, clamped at zero before the square root (`mDist`).
  Per batch entry the three sums are added over the channels; the dice term is `1 − (2·inter + ε) / (tot x + tot y + ε)`,
  averaged over the batch; the Hausdorff term is averaged over batch and channel; the loss is `0.4 · dice + 0.6 · hausdorff`
  (`tail`: these last steps, written once, operation by operation, with the float patterns both programs print).
-/
import Idealize.ShloMosaic.PureOps
import Idealize.ShloMosaic.PureOps.Ideal
import Idealize.ShloMosaic.Lib.ValueIdx

noncomputable section

open scoped BigOperators

namespace Cert.Loss

open Idealize.ShloMosaic Idealize.ShloMosaic.ValueIdx

abbrev A4 : Shape := ⟨4, ![32, 3, 512, 512]⟩
abbrev B1 : Shape := ⟨1, ![32]⟩
abbrev B2 : Shape := ⟨2, ![32, 3]⟩
abbrev B0 : Shape := ⟨0, ![]⟩

/-- A 512 × 512 matrix of extended reals: row, then column. -/
abbrev Mat := Fin 512 → Fin 512 → EReal

/-- The `(b, c)` slab of a `[32, 3, 512, 512]` array. -/
def slab (x : A4.Idx → EReal) (b : Fin 32) (c : Fin 3) : Mat := fun i w => x (ix4 b c i w)

/-- The sum of the entrywise products of two matrices. -/
def mInter (X Y : Mat) : EReal := ∑ i : Fin 512, ∑ w : Fin 512, X i w * Y i w

/-- The total of a matrix. -/
def mTot (X : Mat) : EReal := ∑ i : Fin 512, ∑ w : Fin 512, X i w

/-- The distance between row `i` of `X` and row `j` of `Y`: `√ max(‖x_i‖² + ‖y_j‖² − 2⟨x_i, y_j⟩, 0)`. -/
def mDist (X Y : Mat) (i j : Fin 512) : EReal :=
  Ideal.sqrt (max ((∑ w : Fin 512, X i w * X i w) + (∑ w : Fin 512, Y j w * Y j w)
      - Ideal.ofBits .f32 0x40000000#32 * ∑ w : Fin 512, X i w * Y j w) (Ideal.ofBits .f32 0x00000000#32))

/-- The symmetric Hausdorff distance between the rows of `X` and the rows of `Y`: the larger of
    `max_i min_j d(i, j)` and `max_j min_i d(i, j)`, each fold started at the neutral pattern (−∞ for max, +∞ for min). -/
def mHd (X Y : Mat) : EReal :=
  max
    ((Finset.univ : Finset (Fin 512)).fold max (Ideal.ofBits .f32 0xFF800000#32) fun i =>
      (Finset.univ : Finset (Fin 512)).fold min (Ideal.ofBits .f32 0x7F800000#32) fun j => mDist X Y i j)
    ((Finset.univ : Finset (Fin 512)).fold max (Ideal.ofBits .f32 0xFF800000#32) fun j =>
      (Finset.univ : Finset (Fin 512)).fold min (Ideal.ofBits .f32 0x7F800000#32) fun i => mDist X Y i j)

/-- Per batch entry: the products' sum over the three channels. -/
def interB (x y : A4.Idx → EReal) : B1.Idx → EReal := fun j => ∑ c : Fin 3, mInter (slab x (j 0) c) (slab y (j 0) c)

/-- Per batch entry: an array's total over the three channels. -/
def totB (x : A4.Idx → EReal) : B1.Idx → EReal := fun j => ∑ c : Fin 3, mTot (slab x (j 0) c)

/-- Per batch entry and channel: the Hausdorff distance of the two slabs. -/
def hdBC (x y : A4.Idx → EReal) : B2.Idx → EReal := fun j => mHd (slab x (j 0) (j 1)) (slab y (j 0) (j 1))

/-- From the per-batch sums and the per-slab distances to the loss: the dice ratio per batch entry, its mean over the 32
    entries, the mean of the 96 distances, and the weighted sum. -/
def tail (hr1 : B1.ReducesTo [0] B0) (hr2 : B2.ReducesTo [0, 1] B0) (hb : B0.BroadcastsInDim B1 (![] : Fin 0 → Fin B1.rank))
    (h0 : 0 < B0.numel) (ib sx sy : FVec Ideal B1 .f32) (hd : FVec Ideal B2 .f32) : FVec Ideal B0 .f32 :=
  addf
    (mulf (constant (F := Ideal) B0 .f32 0x3ECCCCCD#32)
      (Host.divf
        (Host.reduceAdd
          (subf (broadcastInDim B1 ![] hb (constant (F := Ideal) B0 .f32 0x3F800000#32))
            (Host.divf
              (addf (mulf (broadcastInDim B1 ![] hb (constant (F := Ideal) B0 .f32 0x40000000#32)) ib)
                (broadcastInDim B1 ![] hb (constant (F := Ideal) B0 .f32 0x3727C5AC#32)))
              (addf (addf sx sy) (broadcastInDim B1 ![] hb (constant (F := Ideal) B0 .f32 0x3727C5AC#32)))))
          (constant (F := Ideal) B0 .f32 0x00000000#32) hr1 h0)
        (constant (F := Ideal) B0 .f32 0x42000000#32)))
    (mulf (constant (F := Ideal) B0 .f32 0x3F19999A#32)
      (Host.divf (Host.reduceAdd hd (constant (F := Ideal) B0 .f32 0x00000000#32) hr2 h0)
        (constant (F := Ideal) B0 .f32 0x42C00000#32)))

/-- The loss as one function of the two argument arrays. -/
def loss (hr1 : B1.ReducesTo [0] B0) (hr2 : B2.ReducesTo [0, 1] B0) (hb : B0.BroadcastsInDim B1 (![] : Fin 0 → Fin B1.rank))
    (h0 : 0 < B0.numel) (x y : A4.Idx → EReal) : FVec Ideal B0 .f32 :=
  tail hr1 hr2 hb h0 (interB x y) (totB x) (totB y) (hdBC x y)

end Cert.Loss

end
-- ==== Proof.Blocks.lean ====
/-
  From blocks to the array. The region runs over a 32 × 3 grid; at the point `(b, c)` it reads the `(b, c)` slabs of the two
  argument arrays (one block of extents [1, 1, 512, 512] each) and writes back the one row `[b, c, 0, 0:128]` of the result
  array. The 96 rows tile the result array, so after the run the result array holds, at `(b, c, 0, l)`, lane `l` of what the
  body computes from the two `(b, c)` slabs.
-/
import proofs.«155665_j44796508897917_2_alg».proof.Proof.Gen.KernelIdeal.Frame
import proofs.«155665_j44796508897917_2_alg».proof.Proof.Spec
import Idealize.ShloMosaic.Lib.Pipeline.Value
import Idealize.ShloMosaic.Lib.ValueIdx

set_option maxRecDepth 16384

noncomputable section

namespace Cert.Loss.Region

open Cert.KernelIdeal Cert.KernelIdeal.Gen Cert.Loss
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The `(b, c)` slab of an argument array as the [1, 1, 512, 512] block the body loads. -/
def blockOf (x : S32x3x512x512.Idx → EReal) (b : Fin 32) (c : Fin 3) : Vec Ideal S1x1x512x512 .f32 :=
  fun y => x (ix4 b c (y 2) (y 3))

/-- The result array after the run: at `(b, c, 0, l)`, lane `l` of the body's row computed from the `(b, c)` slabs. -/
def outArr (x y : S32x3x512x512.Idx → EReal) : S32x3x1x128.Idx → EReal :=
  fun i => out0_2 (F := Ideal) (blockOf x (i 0) (i 1)) (blockOf y (i 0) (i 1)) (ix4 0 0 0 (i 3))

/-- The printed index maps over the grid: the three windows sit at the same `(b, c)`, at offset zero on the other axes. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (0 : Fin 4) < 32 ∧ win0_2.index t (1 : Fin 4) < 3
    ∧ win0_2.index t (2 : Fin 4) = 0 ∧ win0_2.index t (3 : Fin 4) = 0 :=
  (by decide +kernel : ∀ t : Fin grid0.N, _)

/-- Every `(b, c)` is some grid point's. -/
theorem idx_onto : ∀ (q0 : Fin 32) (q1 : Fin 3), ∃ t : Fin cfg0.N, win0_2.index t = ![q0.val, q1.val, 0, 0] :=
  (by decide +kernel : ∀ (q0 : Fin 32) (q1 : Fin 3), ∃ t : Fin grid0.N, win0_2.index t = ![q0.val, q1.val, 0, 0])

/-- Reading a function of the result array's indices through point `t`'s block is evaluating it at the block's embedding. -/
theorem read_blk (G : S32x3x1x128.Idx → EReal) (t : Fin cfg0.N) (j : ((cfg0.win 2).xblock (cfg0.grid.coords t)).Idx) :
    ((cfg0.win 2).blk t).view.read (Elt Ideal) G j = G (((cfg0.win 2).blk t).view.emb j) := rfl

/-- The part of a staged row that is written back is the whole row. -/
theorem cut_apply (v : Vec Ideal S1x1x1x128 .f32) (t : Fin cfg0.N) (j : ((cfg0.win 2).xblock (cfg0.grid.coords t)).Idx) :
    (cfg0.win 2).cut (grid0.coords t) v j = v ((cfg0.win 2).xinj (grid0.coords t) j) := rfl

/-- The body's row computed from the `(i 0, i 1)` slabs, at lane `i 3`, is `outArr` at `i`. -/
theorem out_at (x y : S32x3x512x512.Idx → EReal) (A B : Vec Ideal S1x1x512x512 .f32) (k : S1x1x1x128.Idx) (i : S32x3x1x128.Idx)
    (hA : A = blockOf x (i 0) (i 1)) (hB : B = blockOf y (i 0) (i 1)) (hk : k = ix4 0 0 0 (i 3)) :
    out0_2 (F := Ideal) A B k = outArr x y i := by
  subst hA hB hk
  rfl

/-- What point `t` writes back is block `t` of `outArr` of the argument arrays. -/
theorem flushed_eq (c : Dev nD) (t : Fin cfg0.N) :
    (dats m 0 c).flushed 2 t
      = ((cfg0.win 2).blk t).view.read (Elt Ideal) (outArr (V m c main_arg0) (V m c main_arg1)) := by
  show (cfg0.win 2).cut (grid0.coords t) ((dats m 0 c).after 2 t) = _
  rw [after0_2]
  obtain ⟨e0, e1, e2, e3, f0, f1, f2, f3, g0, g1, g2, g3⟩ := idx_facts t
  funext j
  rw [read_blk, cut_apply]
  have hj0 : (j 0).val < 1 := (j 0).isLt
  have hj1 : (j 1).val < 1 := (j 1).isLt
  have hj2 : (j 2).val < 1 := (j 2).isLt
  have hj3 : (j 3).val < 128 := (j 3).isLt
  refine out_at _ _ _ _ _ (((cfg0.win 2).blk t).view.emb j) ?_ ?_ ?_
  · funext y
    show V m c main_arg0 (((cfg0.win 0).blk t).view.emb y) = V m c main_arg0 _
    refine congrArg (V m c main_arg0) (funext fun a => Fin.ext ?_)
    have hy0 : (y 0).val < 1 := (y 0).isLt
    have hy1 : (y 1).val < 1 := (y 1).isLt
    match a with
    | ⟨0, _⟩ => show win0_0.index t (0 : Fin 4) * 1 + 1 * (y 0).val = win0_2.index t (0 : Fin 4) * 1 + 1 * (j 0).val; omega
    | ⟨1, _⟩ => show win0_0.index t (1 : Fin 4) * 1 + 1 * (y 1).val = win0_2.index t (1 : Fin 4) * 1 + 1 * (j 1).val; omega
    | ⟨2, _⟩ => show win0_0.index t (2 : Fin 4) * 512 + 1 * (y 2).val = (y 2).val; omega
    | ⟨3, _⟩ => show win0_0.index t (3 : Fin 4) * 512 + 1 * (y 3).val = (y 3).val; omega
  · funext y
    show V m c main_arg1 (((cfg0.win 1).blk t).view.emb y) = V m c main_arg1 _
    refine congrArg (V m c main_arg1) (funext fun a => Fin.ext ?_)
    have hy0 : (y 0).val < 1 := (y 0).isLt
    have hy1 : (y 1).val < 1 := (y 1).isLt
    match a with
    | ⟨0, _⟩ => show win0_1.index t (0 : Fin 4) * 1 + 1 * (y 0).val = win0_2.index t (0 : Fin 4) * 1 + 1 * (j 0).val; omega
    | ⟨1, _⟩ => show win0_1.index t (1 : Fin 4) * 1 + 1 * (y 1).val = win0_2.index t (1 : Fin 4) * 1 + 1 * (j 1).val; omega
    | ⟨2, _⟩ => show win0_1.index t (2 : Fin 4) * 512 + 1 * (y 2).val = (y 2).val; omega
    | ⟨3, _⟩ => show win0_1.index t (3 : Fin 4) * 512 + 1 * (y 3).val = (y 3).val; omega
  · funext a
    apply Fin.ext
    match a with
    | ⟨0, _⟩ => show (j 0).val = 0; omega
    | ⟨1, _⟩ => show (j 1).val = 0; omega
    | ⟨2, _⟩ => show (j 2).val = 0; omega
    | ⟨3, _⟩ => show (j 3).val = win0_2.index t (3 : Fin 4) * 128 + 1 * (j 3).val; omega

/-- An index of the result array is in point `t`'s block iff each coordinate is in the block's range on its axis. -/
theorem mem_blk (t : Fin cfg0.N) (i : S32x3x1x128.Idx) :
    i ∈ ((cfg0.win 2).blk t).view.set ↔ ∀ a : Fin 4, win0_2.index t a * S1x1x1x128.size a ≤ (i a).val ∧ (i a).val < win0_2.index t a * S1x1x1x128.size a + S1x1x1x128.size a := by
  show i ∈ ((View.whole main_v0).slice (win0_2.rect t)).set ↔ _
  rw [View.set_slice_whole, Rect.mem_set_unit]
  exact Iff.rfl

/-- The 96 rows cover the result array. -/
theorem cover (i : S32x3x1x128.Idx) : ∃ t : Fin cfg0.N, (cfg0.win 2).flush t = true ∧ i ∈ ((cfg0.win 2).blk t).view.set := by
  have hi0 : (i 0).val < 32 := (i 0).isLt
  have hi1 : (i 1).val < 3 := (i 1).isLt
  have hi2 : (i 2).val < 1 := (i 2).isLt
  have hi3 : (i 3).val < 128 := (i 3).isLt
  obtain ⟨t, ht⟩ := idx_onto ⟨(i 0).val, hi0⟩ ⟨(i 1).val, hi1⟩
  have q0 : win0_2.index t (0 : Fin 4) = (i 0).val := congrFun ht 0
  have q1 : win0_2.index t (1 : Fin 4) = (i 1).val := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 1 ≤ (i 2).val ∧ (i 2).val < win0_2.index t (2 : Fin 4) * 1 + 1; omega
  | ⟨3, _⟩ => show win0_2.index t (3 : Fin 4) * 128 ≤ (i 3).val ∧ (i 3).val < win0_2.index t (3 : Fin 4) * 128 + 128; omega

/-- The result array after the run is `outArr` of the argument arrays. -/
theorem final (c : Dev nD) :
    (dats m 0 c).arrAt 2 cfg0.N = outArr (m ((c : Thread nD τ).loc main_arg0)) (m ((c : Thread nD τ).loc main_arg1)) :=
  (dats m 0 c).arrAt_eq_of_cover 2 (outArr (V m c main_arg0) (V m c main_arg1)) (fun t _ => flushed_eq m c t) cover

end Cert.Loss.Region

end
-- ==== Proof.Tail.lean ====
/-
  The operations after the region. They cut the result array into its four meaningful lanes — lane 0 the products' sum,
  lane 1 and lane 2 the two totals, lane 3 the Hausdorff distance, each a [32, 3] array over batch entry and channel —,
  add the first three over the channels, and finish as `Cert.Loss.tail` does. Given what the body leaves in each of the four
  lanes, the kernel's result is therefore `Cert.Loss.loss` of the two argument arrays.
-/
import proofs.«155665_j44796508897917_2_alg».proof.Proof.Blocks
import Idealize.ShloMosaic.Lib.StableHlo.Run
import Idealize.ShloMosaic.Lib.Pipeline.FrameSuffix
import Idealize.ShloMosaic.PureOps.Ideal.Laws

set_option maxRecDepth 16384

noncomputable section

open scoped BigOperators

namespace Cert.Loss.Region

open Cert.KernelIdeal Cert.KernelIdeal.Gen Cert.Loss
open Idealize.ShloMosaic Idealize.ShloMosaic.TcCoe Idealize.ShloMosaic.ValueIdx Idealize.SL.Sem Idealize.ShloMosaic.StableHlo

/-- One lane of a [32, 3, 1, 128] array, cut out and reshaped to [32, 3], read at `(b, c)`: the array at `(b, c, 0, lane)`. -/
theorem slice_lane (A : S32x3x1x128.Idx → EReal) (o : Nat) (ho : o < 128) (hs : S32x3x1x128.Slices ![0, 0, 0, o] S32x3x1x1)
    (j : S32x3.Idx) :
    shapeCast S32x3 (extractStridedSlice S32x3x1x1 ![0, 0, 0, o] A hs) shapeCasts_S32x3x1x1_S32x3 j
      = A (ix4 (j 0) (j 1) 0 ⟨o, ho⟩) := by
  refine (shapeCast_apply _ shapeCasts_S32x3x1x1_S32x3 j (ix4 (j 0) (j 1) 0 0) ?_).trans ?_
  · rw [Shape.rowMajor_val_four, Shape.rowMajor_val_two]
    show (((j 0).val * 3 + (j 1).val) * 1 + 0) * 1 + 0 = (j 0).val * 3 + (j 1).val
    omega
  · refine extractStridedSlice_apply _ A hs _ _ ?_
    intro a
    match a with
    | ⟨0, _⟩ => show (j 0).val = 0 + (j 0).val; omega
    | ⟨1, _⟩ => show (j 1).val = 0 + (j 1).val; omega
    | ⟨2, _⟩ => show 0 = 0 + 0; rfl
    | ⟨3, _⟩ => show o = o + 0; rfl

/-- A lane summed over the channels, per batch entry. -/
theorem lane_sum (A : S32x3x1x128.Idx → EReal) (o : Nat) (ho : o < 128) (hs : S32x3x1x128.Slices ![0, 0, 0, o] S32x3x1x1)
    (g : Fin 32 → Fin 3 → EReal) (hg : ∀ b c, A (ix4 b c 0 ⟨o, ho⟩) = g b c) :
    Host.reduceAdd (F := Ideal) (shapeCast S32x3 (extractStridedSlice S32x3x1x1 ![0, 0, 0, o] A hs) shapeCasts_S32x3x1x1_S32x3)
        (constant (F := Ideal) S_ .f32 0x00000000#32) reducesTo_S32x3_S32_d1 h_S_
      = fun j => ∑ c : Fin 3, g (j 0) c := by
  funext j
  have hR : S32x3.Reduces [1] S32 := by decide
  simp only [Host.reduceAdd, Ideal.hostReduceAdd_def]
  rw [Ideal.hostReduceAdd_single reducesTo_S32x3_S32_d1 hR]
  rw [show constant (F := Ideal) S_ .f32 0x00000000#32 (Shape.Idx.first h_S_) = 0 from Ideal.ofBits_zero_f32, zero_add]
  refine Finset.sum_congr rfl fun k _ => ?_
  rw [slice_lane A o ho hs]
  exact hg _ _

/-- A lane as a [32, 3] array. -/
theorem lane_arr (A : S32x3x1x128.Idx → EReal) (o : Nat) (ho : o < 128) (hs : S32x3x1x128.Slices ![0, 0, 0, o] S32x3x1x1)
    (g : Fin 32 → Fin 3 → EReal) (hg : ∀ b c, A (ix4 b c 0 ⟨o, ho⟩) = g b c) :
    shapeCast S32x3 (extractStridedSlice S32x3x1x1 ![0, 0, 0, o] A hs) shapeCasts_S32x3x1x1_S32x3
      = fun j => g (j 0) (j 1) := by
  funext j
  rw [slice_lane A o ho hs]
  exact hg _ _

/-- The tail respects equality of its four inputs. -/
theorem tail_congr {ib ib' sx sx' sy sy' : FVec Ideal S32 .f32} {hd hd' : FVec Ideal S32x3 .f32}
    (h1 : ib = ib') (h2 : sx = sx') (h3 : sy = sy') (h4 : hd = hd') :
    tail reducesTo_S32_S_d0 reducesTo_S32x3_S_d0_1 bcast_S_S32 h_S_ ib sx sy hd
      = tail reducesTo_S32_S_d0 reducesTo_S32x3_S_d0_1 bcast_S_S32 h_S_ ib' sx' sy' hd' := by
  subst h1 h2 h3 h4; rfl

variable (m : (ℓ : Loc nD τ sig) → Buf (Elt Ideal) ℓ)

/-- `outArr` at `(b, c, 0, l)` is lane `l` of the body's row computed from the `(b, c)` slabs. -/
theorem outArr_apply (x y : S32x3x512x512.Idx → EReal) (b : Fin 32) (c : Fin 3) (l : Fin 128) :
    outArr x y (ix4 b c 0 l) = out0_2 (F := Ideal) (blockOf x b c) (blockOf y b c) (ix4 0 0 0 l) := rfl

set_option maxHeartbeats 4000000 in
/-- The kernel's result after the whole run, given the body's four lanes: the loss of the two argument arrays. -/
theorem tail_eq
    (L0 : ∀ x0 x1 : Vec Ideal S1x1x512x512 .f32, out0_2 (F := Ideal) x0 x1 (ix4 0 0 0 ⟨0, by decide⟩)
      = mInter (fun i w => x0 (ix4 0 0 i w)) (fun i w => x1 (ix4 0 0 i w)))
    (L1 : ∀ x0 x1 : Vec Ideal S1x1x512x512 .f32, out0_2 (F := Ideal) x0 x1 (ix4 0 0 0 ⟨1, by decide⟩)
      = mTot (fun i w => x0 (ix4 0 0 i w)))
    (L2 : ∀ x0 x1 : Vec Ideal S1x1x512x512 .f32, out0_2 (F := Ideal) x0 x1 (ix4 0 0 0 ⟨2, by decide⟩)
      = mTot (fun i w => x1 (ix4 0 0 i w)))
    (L3 : ∀ x0 x1 : Vec Ideal S1x1x512x512 .f32, out0_2 (F := Ideal) x0 x1 (ix4 0 0 0 ⟨3, by decide⟩)
      = mHd (fun i w => x0 (ix4 0 0 i w)) (fun i w => x1 (ix4 0 0 i w)))
    (c : Dev nD) :
    Pipeline.afterTail₀ cfgs (dats m) 0 (V0 m) [hostOps1] c main_v28
      = Cert.Loss.loss reducesTo_S32_S_d0 reducesTo_S32x3_S_d0_1 bcast_S_S32 h_S_
          (m ((c : Thread nD τ).loc main_arg0)) (m ((c : Thread nD τ).loc main_arg1)) := by
  have hA : Pipeline.withArrays (cfgs 0).spec c (V0 m c) (fun w => (dats m 0 c).arrAt w (cfgs 0).N) (Proc.tc.devRef main_v0)
      = outArr (m ((c : Thread nD τ).loc main_arg0)) (m ((c : Thread nD τ).loc main_arg1)) :=
    (Pipeline.withArrays_arr spec0 launch0.win.arr_inj c _ _ 2).trans (final m c)
  unfold Pipeline.afterTail₀
  show StableHlo.after hostOps1 _ (Proc.devRef .tc main_v28) = _
  after_results_simp
  rw [hA]
  unfold Cert.Loss.loss
  refine Eq.trans (b := tail reducesTo_S32_S_d0 reducesTo_S32x3_S_d0_1 bcast_S_S32 h_S_ _ _ _ _) rfl (tail_congr ?_ ?_ ?_ ?_)
  · exact lane_sum _ 0 (by decide) _ _ fun b c => (outArr_apply _ _ b c _).trans (L0 _ _)
  · exact lane_sum _ 1 (by decide) _ _ fun b c => (outArr_apply _ _ b c _).trans (L1 _ _)
  · exact lane_sum _ 2 (by decide) _ _ fun b c => (outArr_apply _ _ b c _).trans (L2 _ _)
  · exact lane_arr _ 3 (by decide) _ _ fun b c => (outArr_apply _ _ b c _).trans (L3 _ _)

end Cert.Loss.Region

end
-- ==== Proof.Payload.lean ====
/-
  The arithmetic of the kernel body, read at the extended reals.

  The body reads two 512 × 512 matrices `X`, `Y` (each a `[1, 1, 512, 512]` block; `mat` names the matrix a block holds)
  and stores a row of 128 lanes. Read at an index, every step is a statement about one element:
  a sum along one axis is the `Fin`-indexed sum over that axis's coordinates, a minimum or maximum along one axis the fold
  of `min` / `max` over them, a shape cast, transpose or broadcast reads one element of its operand, and the product
  contracting the second axis of both operands reads `∑ k, X i k * Y j k`. Chaining these:
  lane 0 is `∑ i, ∑ w, X i w * Y i w` (`mInter`), lanes 1 and 2 the totals of `X` and `Y` (`mTot`), and lane 3 the
  symmetric Hausdorff distance between the rows of `X` and the rows of `Y` (`mHd`), through the distance matrix
  `√ max(‖x_i‖² + ‖y_j‖² − 2⟨x_i, y_j⟩, 0)` (`mDist`). The lanes are told apart by comparing the lane number with
  0, 1, 2, 3; every other lane is zero.
-/
import proofs.«155665_j44796508897917_2_alg».proof.Proof.Gen.KernelIdeal.Frame
import proofs.«155665_j44796508897917_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Loss.Body

open Cert.KernelIdeal Cert.KernelIdeal.Gen Cert.Loss Idealize.ShloMosaic Idealize.ShloMosaic.ValueIdx

/-- The 512 × 512 matrix a `[1, 1, 512, 512]` block holds: row, then column. -/
def mat (v : Vec Ideal S1x1x512x512 .f32) : Mat := fun i w => v (ix4 0 0 i w)

/-! ## Layout steps read at coordinates -/

/-- The block viewed as a matrix reads, at `(i, w)`, the block at `(0, 0, i, w)`. -/
theorem cast4_apply {α : Type} (v : S1x1x512x512.Idx → α) (h : S1x1x512x512.ShapeCasts S512x512) (i w : Fin 512) :
    shapeCast S512x512 v h (ix2 i w) = v (ix4 0 0 i w) :=
  shapeCast_apply v h _ _ (by
    rw [Shape.rowMajor_val_four, Shape.rowMajor_val_two]
    show ((0 * 1 + 0) * 512 + i.val) * 512 + w.val = i.val * 512 + w.val
    omega)

/-- A vector of 512 viewed as a column reads, at `(i, u)`, the vector at `i`. -/
theorem castCol_apply {α : Type} (v : S512.Idx → α) (h : S512.ShapeCasts S512x1) (i : Fin 512) (u : Fin 1) :
    shapeCast S512x1 v h (ix2 i u) = v (ix1 i) :=
  shapeCast_apply v h _ _ (by
    have hu : u.val = 0 := by omega
    rw [Shape.rowMajor_val_one, Shape.rowMajor_val_two]
    show i.val = i.val * 1 + u.val
    omega)

/-- A one-element vector viewed as a 1 × 1 matrix reads its one element. -/
theorem cast11_apply {α : Type} (v : S1.Idx → α) (h : S1.ShapeCasts S1x1) (u u' : Fin 1) :
    shapeCast S1x1 v h (ix2 u u') = v (ix1 0) :=
  shapeCast_apply v h _ _ (by
    have hu : u.val = 0 := by omega
    have hu' : u'.val = 0 := by omega
    rw [Shape.rowMajor_val_one, Shape.rowMajor_val_two]
    show (0 : Fin 1).val = u.val * 1 + u'.val
    rw [hu, hu']; rfl)

/-! ## Sums along one axis -/

/-- The sum along the second axis of a 512 × 512 matrix, at row `i`, is the sum over the columns. -/
theorem rowSum_apply (src : FVec Ideal S512x512 .f32) (h : S512x512.Reduces [1] S512) (hφ : FKind.Formats .f32)
    (hacc : (0x00000000#32 : BitVec 32) = FKind.add.neutral .f32 hφ) (i : Fin 512) :
    multiReduction (F := Ideal) .add [1] S512 src 0x00000000#32 h hφ hacc (ix1 i) = ∑ w : Fin 512, src (ix2 i w) := by
  refine (Ideal.multiReduction_add_single src _ h hφ hacc (ix1 i)).trans ?_
  refine Finset.sum_congr rfl fun w _ => congrArg src ?_
  funext a; apply Fin.ext
  match a with
  | ⟨0, _⟩ => rfl
  | ⟨1, _⟩ => rfl

/-- The sum along the first axis of a 512 × 1 column is the sum over the rows. -/
theorem colSum_apply (src : FVec Ideal S512x1 .f32) (h : S512x1.Reduces [0] S1) (hφ : FKind.Formats .f32)
    (hacc : (0x00000000#32 : BitVec 32) = FKind.add.neutral .f32 hφ) (u : Fin 1) :
    multiReduction (F := Ideal) .add [0] S1 src 0x00000000#32 h hφ hacc (ix1 u) = ∑ i : Fin 512, src (ix2 i (0 : Fin 1)) := by
  refine (Ideal.multiReduction_add_single src _ h hφ hacc (ix1 u)).trans ?_
  refine Finset.sum_congr rfl fun i _ => congrArg src ?_
  funext a; apply Fin.ext
  match a with
  | ⟨0, _⟩ => rfl
  | ⟨1, _⟩ => show u.val = 0; omega

/-! ## The three sums -/

theorem pay2_apply (v : Vec Ideal S1x1x512x512 .f32) (i w : Fin 512) : k0_pay2 (F := Ideal) v (ix2 i w) = mat v i w := by
  unfold k0_pay2; exact cast4_apply v _ i w

theorem pay3_apply (v : Vec Ideal S1x1x512x512 .f32) (i w : Fin 512) : k0_pay3 (F := Ideal) v (ix2 i w) = mat v i w := by
  unfold k0_pay3; exact cast4_apply v _ i w

/-- Summing a matrix along its columns, then the column of row sums along its rows, gives the double sum. -/
theorem total_apply (src : FVec Ideal S512x512 .f32) (h1 : S512x512.Reduces [1] S512) (h2 : S512.ShapeCasts S512x1)
    (h3 : S512x1.Reduces [0] S1) (h4 : S1.ShapeCasts S1x1) (hφ hφ' : FKind.Formats .f32)
    (hacc : (0x00000000#32 : BitVec 32) = FKind.add.neutral .f32 hφ) (hacc' : (0x00000000#32 : BitVec 32) = FKind.add.neutral .f32 hφ')
    (u u' : Fin 1) :
    shapeCast S1x1 (multiReduction (F := Ideal) .add [0] S1
        (shapeCast S512x1 (multiReduction (F := Ideal) .add [1] S512 src 0x00000000#32 h1 hφ hacc) h2) 0x00000000#32 h3 hφ' hacc') h4 (ix2 u u')
      = ∑ i : Fin 512, ∑ w : Fin 512, src (ix2 i w) := by
  refine (cast11_apply _ _ u u').trans ?_
  refine (colSum_apply _ _ _ _ 0).trans ?_
  refine Finset.sum_congr rfl fun i _ => ?_
  refine (castCol_apply _ _ i 0).trans ?_
  exact rowSum_apply _ _ _ _ i

theorem pay4_eq (x0 x1 : Vec Ideal S1x1x512x512 .f32) (u u' : Fin 1) :
    k0_pay4 (F := Ideal) x0 x1 (ix2 u u') = mInter (mat x0) (mat x1) := by
  unfold k0_pay4
  refine (total_apply _ _ _ _ _ _ _ _ _ u u').trans ?_
  unfold mInter
  refine Finset.sum_congr rfl fun i _ => Finset.sum_congr rfl fun w _ => ?_
  show k0_pay2 x0 (ix2 i w) * k0_pay3 x1 (ix2 i w) = _
  rw [pay2_apply, pay3_apply]

theorem pay5_eq (x0 : Vec Ideal S1x1x512x512 .f32) (u u' : Fin 1) :
    k0_pay5 (F := Ideal) x0 (ix2 u u') = mTot (mat x0) := by
  unfold k0_pay5
  refine (total_apply _ _ _ _ _ _ _ _ _ u u').trans ?_
  unfold mTot
  exact Finset.sum_congr rfl fun i _ => Finset.sum_congr rfl fun w _ => pay2_apply x0 i w

theorem pay6_eq (x1 : Vec Ideal S1x1x512x512 .f32) (u u' : Fin 1) :
    k0_pay6 (F := Ideal) x1 (ix2 u u') = mTot (mat x1) := by
  unfold k0_pay6
  refine (total_apply _ _ _ _ _ _ _ _ _ u u').trans ?_
  unfold mTot
  exact Finset.sum_congr rfl fun i _ => Finset.sum_congr rfl fun w _ => pay3_apply x1 i w

/-! ## The distance matrix -/

/-- A column broadcast over 512 columns reads, at `(i, j)`, the column at `i`. -/
theorem bcastCol_apply {α : Type} (v : S512x1.Idx → α) (h : S512x1.Broadcasts S512x512) (i j : Fin 512) :
    broadcastTo S512x512 v h (ix2 i j) = v (ix2 i (0 : Fin 1)) :=
  broadcastTo_apply v h (ix2 i j) (ix2 i (0 : Fin 1)) fun ax => by
    match ax with
    | ⟨0, _⟩ => rfl
    | ⟨1, _⟩ => rfl

/-- On its first axis the left operand's index is the output's row, whatever the contraction index. -/
theorem dot_lhs0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide),
    dif_pos (show (0 : Fin S512x512.rank) ∈ dot_S512x512_S512x512_S512x512_1_1_0_0_n_n.lhsNonContracting by decide)]
  rfl

/-- On its first axis the right operand's index is the output's column. -/
theorem dot_rhs0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide),
    dif_pos (show (0 : Fin S512x512.rank) ∈ dot_S512x512_S512x512_S512x512_1_1_0_0_n_n.rhsNonContracting by decide)]
  rfl

/-- On the second axis each operand's index is the contraction index's one coordinate. -/
theorem dot_lhs1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q

theorem dot_rhs1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- The product contracting the second axis of both operands reads, at `(i, j)`, the sum over `k` of `A i k * B j k`. -/
theorem matmul_rows_apply (A B : FVec Ideal S512x512 .f32) (i j : Fin 512) :
    matmul (F := Ideal) dot_S512x512_S512x512_S512x512_1_1_0_0_n_n (some .fp32) A B (constant S512x512 .f32 0x00000000#32) (ix2 i j)
      = ∑ k : Fin 512, A (ix2 i k) * B (ix2 j k) := by
  refine (Ideal.matmul_constant_zero_apply dot_S512x512_S512x512_S512x512_1_1_0_0_n_n _ A B (ix2 i j)).trans ?_
  rw [← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 i j)
      ((contrEquiv1 dot_S512x512_S512x512_S512x512_1_1_0_0_n_n 512 rfl rfl).symm k) = ix2 i k := funext fun a => Fin.ext (by
    match a with
    | ⟨0, _⟩ => exact dot_lhs0 _ _
    | ⟨1, _⟩ => exact (dot_lhs1 _ _).trans hk)
  have er : dot_S512x512_S512x512_S512x512_1_1_0_0_n_n.rhsIdx (ix2 i j)
      ((contrEquiv1 dot_S512x512_S512x512_S512x512_1_1_0_0_n_n 512 rfl rfl).symm k) = ix2 j k := funext fun a => Fin.ext (by
    match a with
    | ⟨0, _⟩ => exact dot_rhs0 _ _
    | ⟨1, _⟩ => exact (dot_rhs1 _ _).trans hk)
  rw [el, er]

/-- The squared norm of each row, kept as a column, reads at `(i, u)` the sum of the row's squares. -/
theorem sqNorm_apply (A : FVec Ideal S512x512 .f32) (h1 : S512x512.Reduces [1] S512) (h2 : S512.ShapeCasts S512x1)
    (hφ : FKind.Formats .f32) (hacc : (0x00000000#32 : BitVec 32) = FKind.add.neutral .f32 hφ) (i : Fin 512) (u : Fin 1) :
    shapeCast S512x1 (multiReduction (F := Ideal) .add [1] S512 (mulf A A) 0x00000000#32 h1 hφ hacc) h2 (ix2 i u)
      = ∑ w : Fin 512, A (ix2 i w) * A (ix2 i w) := by
  refine (castCol_apply _ _ i u).trans ?_
  exact rowSum_apply _ _ _ _ i

theorem pay7_apply (x0 x1 : Vec Ideal S1x1x512x512 .f32) (i j : Fin 512) :
    k0_pay7 (F := Ideal) x0 x1 (ix2 i j) = mDist (mat x0) (mat x1) i j := by
  unfold k0_pay7 mDist
  refine congrArg Ideal.sqrt ?_
  refine congrArg₂ max ?_ rfl
  refine congrArg₂ (· - ·) (congrArg₂ (· + ·) ?_ ?_) (congrArg₂ (· * ·) rfl ?_)
  · refine (bcastCol_apply _ _ i j).trans ?_
    refine (sqNorm_apply _ _ _ _ _ i 0).trans ?_
    exact Finset.sum_congr rfl fun w _ => by rw [pay2_apply]
  · refine (broadcastTo_1b_ab_apply _ _ i j).trans ?_
    refine (transpose_ix2_apply _ _ (0 : Fin 1) j).trans ?_
    refine (sqNorm_apply _ _ _ _ _ j 0).trans ?_
    exact Finset.sum_congr rfl fun w _ => by rw [pay3_apply]
  · refine (matmul_rows_apply _ _ i j).trans ?_
    exact Finset.sum_congr rfl fun w _ => by rw [pay2_apply, pay3_apply]

/-! ## Minima and maxima along one axis -/

/-- A `minimumf` reduction over one axis, at the ideal values: the fold of `min` from the accumulator's value over that
    axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum along the second axis of a matrix, at row `i`: the fold of `min` over the columns. -/
theorem minRow_apply (src : FVec Ideal S512x512 .f32) (h : S512x512.Reduces [1] S512) (hφ : FKind.Formats .f32)
    (hacc : (0x7F800000#32 : BitVec 32) = FKind.minimumf.neutral .f32 hφ) (i : Fin 512) :
    multiReduction (F := Ideal) .minimumf [1] S512 src 0x7F800000#32 h hφ hacc (ix1 i)
      = (Finset.univ : Finset (Fin 512)).fold min (Ideal.ofBits .f32 0x7F800000#32) fun j => src (ix2 i j) := by
  refine (multiReduction_minimumf_single src _ h hφ hacc (ix1 i)).trans ?_
  refine Finset.fold_congr fun j _ => congrArg src ?_
  funext a; apply Fin.ext
  match a with
  | ⟨0, _⟩ => rfl
  | ⟨1, _⟩ => rfl

/-- The minimum along the first axis of a matrix, at column `j`: the fold of `min` over the rows. -/
theorem minCol_apply (src : FVec Ideal S512x512 .f32) (h : S512x512.Reduces [0] S512) (hφ : FKind.Formats .f32)
    (hacc : (0x7F800000#32 : BitVec 32) = FKind.minimumf.neutral .f32 hφ) (j : Fin 512) :
    multiReduction (F := Ideal) .minimumf [0] S512 src 0x7F800000#32 h hφ hacc (ix1 j)
      = (Finset.univ : Finset (Fin 512)).fold min (Ideal.ofBits .f32 0x7F800000#32) fun i => src (ix2 i j) := by
  refine (multiReduction_minimumf_single src _ h hφ hacc (ix1 j)).trans ?_
  refine Finset.fold_congr fun i _ => congrArg src ?_
  funext a; apply Fin.ext
  match a with
  | ⟨0, _⟩ => rfl
  | ⟨1, _⟩ => rfl

/-- The maximum along the first axis of a 512 × 1 column: the fold of `max` over the rows. -/
theorem maxCol_apply (src : FVec Ideal S512x1 .f32) (h : S512x1.Reduces [0] S1) (hφ : FKind.Formats .f32)
    (hacc : (0xFF800000#32 : BitVec 32) = FKind.maximumf.neutral .f32 hφ) (u : Fin 1) :
    multiReduction (F := Ideal) .maximumf [0] S1 src 0xFF800000#32 h hφ hacc (ix1 u)
      = (Finset.univ : Finset (Fin 512)).fold max (Ideal.ofBits .f32 0xFF800000#32) fun i => src (ix2 i (0 : Fin 1)) := by
  refine (Ideal.multiReduction_maximumf_single src _ h hφ hacc (ix1 u)).trans ?_
  refine Finset.fold_congr fun i _ => congrArg src ?_
  funext a; apply Fin.ext
  match a with
  | ⟨0, _⟩ => rfl
  | ⟨1, _⟩ => show u.val = 0; omega

/-- The maximum along the second axis of a 1 × 512 row: the fold of `max` over the columns. -/
theorem maxRow_apply (src : FVec Ideal S1x512 .f32) (h : S1x512.Reduces [1] S1) (hφ : FKind.Formats .f32)
    (hacc : (0xFF800000#32 : BitVec 32) = FKind.maximumf.neutral .f32 hφ) (u : Fin 1) :
    multiReduction (F := Ideal) .maximumf [1] S1 src 0xFF800000#32 h hφ hacc (ix1 u)
      = (Finset.univ : Finset (Fin 512)).fold max (Ideal.ofBits .f32 0xFF800000#32) fun j => src (ix2 (0 : Fin 1) j) := by
  refine (Ideal.multiReduction_maximumf_single src _ h hφ hacc (ix1 u)).trans ?_
  refine Finset.fold_congr fun j _ => congrArg src ?_
  funext a; apply Fin.ext
  match a with
  | ⟨0, _⟩ => show u.val = 0; omega
  | ⟨1, _⟩ => rfl

/-- The first directed distance: the maximum over the rows of `X` of the distance to the nearest row of `Y`. -/
theorem pay8_apply (x0 x1 : Vec Ideal S1x1x512x512 .f32) (u : Fin 1) :
    k0_pay8 (F := Ideal) x0 x1 (ix1 u)
      = (Finset.univ : Finset (Fin 512)).fold max (Ideal.ofBits .f32 0xFF800000#32) fun i =>
          (Finset.univ : Finset (Fin 512)).fold min (Ideal.ofBits .f32 0x7F800000#32) fun j => mDist (mat x0) (mat x1) i j := by
  unfold k0_pay8
  refine (maxCol_apply _ _ _ _ u).trans ?_
  refine Finset.fold_congr fun i _ => ?_
  refine (castCol_apply _ _ i 0).trans ?_
  refine (minRow_apply _ _ _ _ i).trans ?_
  exact Finset.fold_congr fun j _ => pay7_apply x0 x1 i j

/-! ## The stored row, lane by lane -/

/-- A 1 × 128 row viewed as `[1, 1, 1, 128]` reads, at `(0, 0, 0, k)`, the row at `(0, k)`. -/
theorem castLane_apply {α : Type} (v : S1x128.Idx → α) (h : S1x128.ShapeCasts S1x1x1x128) (k : Fin 128) :
    shapeCast S1x1x1x128 v h (ix4 0 0 0 k) = v (ix2 (0 : Fin 1) k) :=
  shapeCast_apply v h _ _ (by
    rw [Shape.rowMajor_val_four, Shape.rowMajor_val_two]
    show 0 * 128 + k.val = ((0 * 1 + 0) * 1 + 0) * 128 + k.val
    omega)

/-- A 1 × 1 value broadcast along 128 lanes reads its one element at every lane. -/
theorem bcastLane_apply {α : Type} (v : S1x1.Idx → α) (h : S1x1.Broadcasts S1x128) (u : Fin 1) (k : Fin 128) :
    broadcastTo S1x128 v h (ix2 u k) = v (ix2 (0 : Fin 1) (0 : Fin 1)) :=
  broadcastTo_apply v h (ix2 u k) (ix2 (0 : Fin 1) (0 : Fin 1)) fun ax => by
    match ax with
    | ⟨0, _⟩ => rfl
    | ⟨1, _⟩ => rfl

theorem select_congr {α : Type} {c c' : BitVec 1} {a a' b b' : α} (hc : c = c') (ha : a = a') (hb : b = b') :
    Scalar.select c a b = Scalar.select c' a' b' := by rw [hc, ha, hb]

/-- The symmetric distance as the body forms it from the distance matrix `D` and the first directed distance `m`:
    the larger of `m` and the maximum over the columns of the column minima. -/
theorem hd_apply (D : FVec Ideal S512x512 .f32) (m : FVec Ideal S1 .f32) (h1 h5 : S1.ShapeCasts S1x1) (h2 : S512x512.Reduces [0] S512)
    (h3 : S512.ShapeCasts S1x512) (h4 : S1x512.Reduces [1] S1) (hφ hφ' : FKind.Formats .f32)
    (hacc : (0x7F800000#32 : BitVec 32) = FKind.minimumf.neutral .f32 hφ)
    (hacc' : (0xFF800000#32 : BitVec 32) = FKind.maximumf.neutral .f32 hφ') (u u' : Fin 1) :
    maximumf (F := Ideal) (shapeCast S1x1 m h1)
        (shapeCast S1x1 (multiReduction (F := Ideal) .maximumf [1] S1
          (shapeCast S1x512 (multiReduction (F := Ideal) .minimumf [0] S512 D 0x7F800000#32 h2 hφ hacc) h3) 0xFF800000#32 h4 hφ' hacc') h5)
        (ix2 u u')
      = max (m (ix1 0)) ((Finset.univ : Finset (Fin 512)).fold max (Ideal.ofBits .f32 0xFF800000#32) fun j =>
          (Finset.univ : Finset (Fin 512)).fold min (Ideal.ofBits .f32 0x7F800000#32) fun i => D (ix2 i j)) := by
  refine congrArg₂ max (cast11_apply _ _ u u') ?_
  refine (cast11_apply _ _ u u').trans ?_
  refine (maxRow_apply _ _ _ _ 0).trans ?_
  refine Finset.fold_congr fun j _ => ?_
  refine (shapeCast_a_1a_apply _ _ (0 : Fin 1) j).trans ?_
  exact minCol_apply _ _ _ _ j

/-- The stored row at lane `k`: the four values selected by comparing the lane number with 0, 1, 2, 3, else zero. -/
theorem pay1_lane (v8 v12 v16 : FVec Ideal S1x1 .f32) (v33 : FVec Ideal S512x512 .f32) (v36 : FVec Ideal S1 .f32) (k : Fin 128) :
    k0_pay1 (F := Ideal) v8 v12 v16 v33 v36 (ix4 0 0 0 k)
      = Scalar.select (IntOp.cmpi .eq (BitVec.ofNat 32 k.val) 0#32) (v8 (ix2 0 0))
          (Scalar.select (IntOp.cmpi .eq (BitVec.ofNat 32 k.val) 1#32) (v12 (ix2 0 0))
            (Scalar.select (IntOp.cmpi .eq (BitVec.ofNat 32 k.val) 2#32) (v16 (ix2 0 0))
              (Scalar.select (IntOp.cmpi .eq (BitVec.ofNat 32 k.val) 3#32)
                (max (v36 (ix1 0)) ((Finset.univ : Finset (Fin 512)).fold max (Ideal.ofBits .f32 0xFF800000#32) fun j =>
                  (Finset.univ : Finset (Fin 512)).fold min (Ideal.ofBits .f32 0x7F800000#32) fun i => v33 (ix2 i j)))
                (Ideal.ofBits .f32 0x00000000#32)))) := by
  unfold k0_pay1
  refine (castLane_apply _ _ k).trans ?_
  have hi : ∀ c : BitVec 32, cmpi .eq (iota .tc S1x128 32 [1] iota_S1x128_d1_w32) (broadcast S1x128 c) (ix2 (0 : Fin 1) k)
      = IntOp.cmpi .eq (BitVec.ofNat 32 k.val) c := fun c => by
    show IntOp.cmpi .eq (iota .tc S1x128 32 [1] iota_S1x128_d1_w32 (ix2 (0 : Fin 1) k)) c = _
    rw [iota_single_apply]
  have hb : ∀ v : FVec Ideal S1x1 .f32, broadcastTo S1x128 (shapeCast S1x1 v shapeCasts_S1x1_S1x1) broadcasts_S1x1_S1x128 (ix2 (0 : Fin 1) k)
      = v (ix2 0 0) := fun v => by
    rw [shapeCast_self]; exact bcastLane_apply v _ 0 k
  refine select_congr (hi _) (hb _) (select_congr (hi _) (hb _) (select_congr (hi _) (hb _) (select_congr (hi _) ?_ rfl)))
  refine (hb _).trans ?_
  exact hd_apply v33 v36 _ _ _ _ _ _ _ _ _ 0 0

/-! ## What the body stores -/

theorem offsets_zero : (![0, 0, 0, 0] : Fin 4 → Nat) = fun _ => 0 := funext fun a => by fin_cases a <;> rfl

/-- The body loads both whole blocks and stores one whole row: the stored row is the row the arithmetic forms. -/
theorem out_eq (x0 x1 : Vec Ideal S1x1x512x512 .f32) :
    out0_2 (F := Ideal) x0 x1
      = k0_pay1 (k0_pay4 x0 x1) (k0_pay5 x0) (k0_pay6 x1) (k0_pay7 x0 x1) (k0_pay8 x0 x1) := by
  unfold out0_2
  rw [View.canon_unit_zero offsets_zero]
  simp only [View.ld_unit_zero (S := S1x1x512x512) offsets_zero]

/-- Lane 0 holds the sum of the entrywise products. -/
theorem out_lane0 (x0 x1 : Vec Ideal S1x1x512x512 .f32) :
    out0_2 (F := Ideal) x0 x1 (ix4 0 0 0 (0 : Fin 128)) = mInter (mat x0) (mat x1) := by
  rw [out_eq, pay1_lane]
  have h0 : IntOp.cmpi .eq (BitVec.ofNat 32 (0 : Fin 128).val) 0#32 = 1#1 := by decide
  rw [h0, select_one]
  exact pay4_eq x0 x1 0 0

/-- Lane 1 holds the first matrix's total. -/
theorem out_lane1 (x0 x1 : Vec Ideal S1x1x512x512 .f32) :
    out0_2 (F := Ideal) x0 x1 (ix4 0 0 0 (1 : Fin 128)) = mTot (mat x0) := by
  rw [out_eq, pay1_lane]
  have h0 : IntOp.cmpi .eq (BitVec.ofNat 32 (1 : Fin 128).val) 0#32 = 0#1 := by decide
  have h1 : IntOp.cmpi .eq (BitVec.ofNat 32 (1 : Fin 128).val) 1#32 = 1#1 := by decide
  rw [h0, select_zero, h1, select_one]
  exact pay5_eq x0 0 0

/-- Lane 2 holds the second matrix's total. -/
theorem out_lane2 (x0 x1 : Vec Ideal S1x1x512x512 .f32) :
    out0_2 (F := Ideal) x0 x1 (ix4 0 0 0 (2 : Fin 128)) = mTot (mat x1) := by
  rw [out_eq, pay1_lane]
  have h0 : IntOp.cmpi .eq (BitVec.ofNat 32 (2 : Fin 128).val) 0#32 = 0#1 := by decide
  have h1 : IntOp.cmpi .eq (BitVec.ofNat 32 (2 : Fin 128).val) 1#32 = 0#1 := by decide
  have h2 : IntOp.cmpi .eq (BitVec.ofNat 32 (2 : Fin 128).val) 2#32 = 1#1 := by decide
  rw [h0, select_zero, h1, select_zero, h2, select_one]
  exact pay6_eq x1 0 0

/-- Lane 3 holds the symmetric Hausdorff distance between the two sets of rows. -/
theorem out_lane3 (x0 x1 : Vec Ideal S1x1x512x512 .f32) :
    out0_2 (F := Ideal) x0 x1 (ix4 0 0 0 (3 : Fin 128)) = mHd (mat x0) (mat x1) := by
  rw [out_eq, pay1_lane]
  have h0 : IntOp.cmpi .eq (BitVec.ofNat 32 (3 : Fin 128).val) 0#32 = 0#1 := by decide
  have h1 : IntOp.cmpi .eq (BitVec.ofNat 32 (3 : Fin 128).val) 1#32 = 0#1 := by decide
  have h2 : IntOp.cmpi .eq (BitVec.ofNat 32 (3 : Fin 128).val) 2#32 = 0#1 := by decide
  have h3 : IntOp.cmpi .eq (BitVec.ofNat 32 (3 : Fin 128).val) 3#32 = 1#1 := by decide
  rw [h0, select_zero, h1, select_zero, h2, select_zero, h3, select_one]
  unfold mHd
  refine congrArg₂ max (pay8_apply x0 x1 0) ?_
  exact Finset.fold_congr fun j _ => Finset.fold_congr fun i _ => pay7_apply x0 x1 i j

end Cert.Loss.Body

end
-- ==== Proof.LibSumBlocks.lean ====
/-
  Finite sums over array index sets, re-indexed. Three general facts, for any commutative additive monoid (so also for
  the extended reals, where no finiteness condition is needed):
    * a sum over `n = a * b` positions is the sum over `a` blocks of the sums over each block's `b` positions
      (`sum_fin_blocks`; stated with the hypothesis `n = a * b` so that a large literal `n` is never factored by evaluation);
    * a sum over the index set of a rank-1 shape `[n]` is the sum over its one coordinate (`sum_idx1`, beside the
      library's `sum_idx2` for rank 2);
    * a reshape only renames indices, so a sum over the reshaped array's index set is the sum over the original's
      (`sum_reshape`, and `sum_shapeCast` for a function of the array's entries).
-/
import Idealize.ShloMosaic.Lib.Pipeline.Value
import Idealize.ShloMosaic.Lib.ValueIdx
import Mathlib.Algebra.BigOperators.Fin

noncomputable section

open scoped BigOperators

namespace Cert.LibSumBlocks

open Idealize.ShloMosaic Idealize.ShloMosaic.ValueIdx

/-- Position `q` of block `p`, of `a` blocks of `b`, is below `a * b`. -/
theorem mul_add_lt {a b : ℕ} (p : Fin a) (q : Fin b) : p.val * b + q.val < a * b :=
  calc p.val * b + q.val < p.val * b + b := Nat.add_lt_add_left q.isLt _
    _ = (p.val + 1) * b := by ring
    _ ≤ a * b := Nat.mul_le_mul_right b p.isLt

/-- A sum over `n = a * b` indices is the sum over the `a` blocks of the sums over each block's `b` positions. -/
theorem sum_fin_blocks {M : Type*} [AddCommMonoid M] {n a b : ℕ} (hn : n = a * b) (f : Fin n → M) :
    ∑ k : Fin n, f k = ∑ p : Fin a, ∑ q : Fin b, f ⟨p.val * b + q.val, hn ▸ mul_add_lt p q⟩ := by
  subst hn
  rw [← finProdFinEquiv.sum_comp, Fintype.sum_prod_type]
  refine Finset.sum_congr rfl fun p _ => Finset.sum_congr rfl fun q _ => ?_
  congr 1
  apply Fin.ext
  show q.val + b * p.val = p.val * b + q.val
  rw [Nat.mul_comm, Nat.add_comm]

/-- A rank-1 index set is its one coordinate's range … -/
def idxEquiv1 {n : Nat} : (⟨1, ![n]⟩ : Shape).Idx ≃ Fin n where
  toFun i := i 0
  invFun l := ix1 l
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ l : Fin n, f (ix1 l) :=
  (Equiv.sum_comp (idxEquiv1 (n := n)).symm f).symm

/-- A reshape renames indices one to one: summing a function of the original index over the reshaped index set is
    summing it over the original one. -/
theorem sum_reshape {M : Type*} [AddCommMonoid M] {s t : Shape} (h : s.ShapeCasts t) (f : s.Idx → M) :
    ∑ j : t.Idx, f (Shape.reshapeEquiv h j) = ∑ i : s.Idx, f i :=
  Equiv.sum_comp (Shape.reshapeEquiv h) f

/-- The total of a function of the entries of a reshaped array is its total over the original array. -/
theorem sum_shapeCast {M : Type*} [AddCommMonoid M] {s t : Shape} {α : Type} (x : s.Idx → α) (h : s.ShapeCasts t)
    (g : α → M) : ∑ j : t.Idx, g (shapeCast t x h j) = ∑ i : s.Idx, g (x i) := by
  unfold shapeCast
  exact sum_reshape h fun i => g (x i)

end Cert.LibSumBlocks

end
-- ==== Proof.RefSide.lean ====
/-
  The reference program's value is the loss of the specification.

  The reference computes, per batch entry, three sums over the entry's 3 * 512 * 512 elements laid out as one row of
  786432 (the products' sum and the two arrays' totals), and, per batch entry and channel, the symmetric Hausdorff
  distance between the rows of the two 512 × 512 slabs, by folds of min and max over the pairwise distances; the rest
  of the program is the specification's `tail` operation for operation. This module reads each of those four arrays at an
  index and identifies it with the specification's `interB`, `totB`, `totB`, `hdBC`.
-/
import proofs.«155665_j44796508897917_2_alg».proof.Proof.Gen.ReferenceIdeal.Read
import proofs.«155665_j44796508897917_2_alg».proof.Proof.Spec
import proofs.«155665_j44796508897917_2_alg».proof.Proof.LibSumBlocks
import Idealize.ShloMosaic.PureOps.Ideal.Laws
import Idealize.ShloMosaic.Lib.ValueIdx
import Idealize.ShloMosaic.Lib.Pipeline.Value

noncomputable section

open scoped BigOperators

namespace Cert.Loss.Ref

open Cert.ReferenceIdeal Cert.ReferenceIdeal.Gen Cert.ReferenceIdeal.Read Cert.Loss Idealize.ShloMosaic
  Idealize.ShloMosaic.ValueIdx

/-- After the three per-batch sums and the per-slab distances the reference is the specification's `tail`, operation
    for operation. -/
theorem ref_tail (x y : (⟨S32x3x512x512, .f32⟩ : BufTy).Contents (Elt Ideal)) :
    val_main_v43 (F := Ideal) x y
      = tail reducesTo_S32_S_d0 reducesTo_S32x3_S_d0_1 bcast_S_S32 h_S_ (val_main_v3 (F := Ideal) x y)
          (val_main_v4 (F := Ideal) x) (val_main_v5 (F := Ideal) y) (val_main_v38 (F := Ideal) x y) := rfl

/-- A row of 786432 = 3 * 512 * 512 positions is the 3 channels of 512 rows of 512 columns: position
    `(c * 512 + i) * 512 + w` of batch entry `b`'s row is element `(b, c, i, w)` of the array. -/
theorem sum_row (f : S32x3x512x512.Idx → EReal) (b : Fin 32) :
    ∑ k : Fin 786432, f (idx_main_v0 (ix2 b k)) = ∑ c : Fin 3, ∑ i : Fin 512, ∑ w : Fin 512, f (ix4 b c i w) := by
  refine (Cert.LibSumBlocks.sum_fin_blocks (n := 786432) (a := 3) (b := 262144) (by norm_num) _).trans ?_
  refine Finset.sum_congr rfl fun c _ => ?_
  refine (Cert.LibSumBlocks.sum_fin_blocks (n := 262144) (a := 512) (b := 512) (by norm_num) _).trans ?_
  refine Finset.sum_congr rfl fun i _ => Finset.sum_congr rfl fun w _ => ?_
  refine congrArg f (funext fun a => Fin.ext ?_)
  have hb : b.val < 32 := b.isLt
  have hc : c.val < 3 := c.isLt
  have hi : i.val < 512 := i.isLt
  have hw : w.val < 512 := w.isLt
  match a with
  | ⟨0, _⟩ =>
    show (b.val * 786432 + (c.val * 262144 + (i.val * 512 + w.val))) / 786432 = b.val
    omega
  | ⟨1, _⟩ =>
    show (b.val * 786432 + (c.val * 262144 + (i.val * 512 + w.val))) / 262144 % 3 = c.val
    omega
  | ⟨2, _⟩ =>
    show (b.val * 786432 + (c.val * 262144 + (i.val * 512 + w.val))) / 512 % 512 = i.val
    omega
  | ⟨3, _⟩ =>
    show (b.val * 786432 + (c.val * 262144 + (i.val * 512 + w.val))) % 512 = w.val
    omega

/-- (a) The products' row sums are the specification's per-batch sums of products. -/
theorem v3_eq (x y : (⟨S32x3x512x512, .f32⟩ : BufTy).Contents (Elt Ideal)) :
    val_main_v3 (F := Ideal) x y = interB x y := by
  funext j
  rw [val_main_v3_apply, val_main_cst_apply]
  simp only [val_main_v2_apply, val_main_v0_apply, val_main_v1_apply]
  refine (congrArg (· + _) Ideal.ofBits_zero_f32).trans ?_
  rw [zero_add]
  exact sum_row (fun i => x i * y i) (j 0)

/-- (b) The first array's row sums are its per-batch totals. -/
theorem v4_eq (x : (⟨S32x3x512x512, .f32⟩ : BufTy).Contents (Elt Ideal)) :
    val_main_v4 (F := Ideal) x = totB x := by
  funext j
  rw [val_main_v4_apply, val_main_cst_0_apply]
  simp only [val_main_v0_apply]
  refine (congrArg (· + _) Ideal.ofBits_zero_f32).trans ?_
  rw [zero_add]
  exact sum_row x (j 0)

/-- (c) The second array's row sums are its per-batch totals. -/
theorem v5_eq (y : (⟨S32x3x512x512, .f32⟩ : BufTy).Contents (Elt Ideal)) :
    val_main_v5 (F := Ideal) y = totB y := by
  funext j
  rw [val_main_v5_apply, val_main_cst_1_apply]
  simp only [val_main_v1_apply]
  refine (congrArg (· + _) Ideal.ofBits_zero_f32).trans ?_
  rw [zero_add]
  exact sum_row y (j 0)

/-- Row `i` of slab `(b, c)` of the first array, squared and summed. -/
theorem v19_at (x : (⟨S32x3x512x512, .f32⟩ : BufTy).Contents (Elt Ideal)) (b : Fin 32) (c : Fin 3) (i : Fin 512) :
    val_main_v19 (F := Ideal) x (ix3 b c i) = ∑ w : Fin 512, x (ix4 b c i w) * x (ix4 b c i w) := by
  rw [val_main_v19_apply, val_main_cst_8_apply]
  refine (congrArg (· + _) Ideal.ofBits_zero_f32).trans ?_
  rw [zero_add]
  refine Finset.sum_congr rfl fun w _ => ?_
  have e : idx_main_v19 (ix3 b c i) w = ix4 b c i w :=
    funext fun a => by match a with | ⟨0, _⟩ => rfl | ⟨1, _⟩ => rfl | ⟨2, _⟩ => rfl | ⟨3, _⟩ => rfl
  rw [val_main_v18_apply, e]
  rfl

/-- Row `j` of slab `(b, c)` of the second array, squared and summed. -/
theorem v21_at (y : (⟨S32x3x512x512, .f32⟩ : BufTy).Contents (Elt Ideal)) (b : Fin 32) (c : Fin 3) (j : Fin 512) :
    val_main_v21 (F := Ideal) y (ix3 b c j) = ∑ w : Fin 512, y (ix4 b c j w) * y (ix4 b c j w) := by
  rw [val_main_v21_apply, val_main_cst_9_apply]
  refine (congrArg (· + _) Ideal.ofBits_zero_f32).trans ?_
  rw [zero_add]
  refine Finset.sum_congr rfl fun w _ => ?_
  have e : idx_main_v21 (ix3 b c j) w = ix4 b c j w :=
    funext fun a => by match a with | ⟨0, _⟩ => rfl | ⟨1, _⟩ => rfl | ⟨2, _⟩ => rfl | ⟨3, _⟩ => rfl
  rw [val_main_v20_apply, e]
  rfl

/-- The batched product of the two arrays at `(b, c, i, j)`: row `i` of the first slab against row `j` of the second. -/
theorem v22_at (x y : (⟨S32x3x512x512, .f32⟩ : BufTy).Contents (Elt Ideal)) (b : Fin 32) (c : Fin 3) (i j : Fin 512) :
    val_main_v22 (F := Ideal) x y (ix4 b c i j) = ∑ w : Fin 512, x (ix4 b c i w) * y (ix4 b c j w) := by
  rw [val_main_v22_apply]
  refine Finset.sum_congr rfl fun w _ => ?_
  have el : lidx_main_v22 (ix4 b c i j) w = ix4 b c i w :=
    funext fun a => by match a with | ⟨0, _⟩ => rfl | ⟨1, _⟩ => rfl | ⟨2, _⟩ => rfl | ⟨3, _⟩ => rfl
  have er : ridx_main_v22 (ix4 b c i j) w = ix4 b c j w :=
    funext fun a => by match a with | ⟨0, _⟩ => rfl | ⟨1, _⟩ => rfl | ⟨2, _⟩ => rfl | ⟨3, _⟩ => rfl
  rw [el, er]

/-- The reference's pairwise distance array at `(b, c, i, j)` is the specification's distance between row `i` of the
    first slab and row `j` of the second. -/
theorem v33_at (x y : (⟨S32x3x512x512, .f32⟩ : BufTy).Contents (Elt Ideal)) (b : Fin 32) (c : Fin 3) (i j : Fin 512) :
    val_main_v33 (F := Ideal) x y (ix4 b c i j) = mDist (slab x b c) (slab y b c) i j := by
  rw [val_main_v33_apply, val_main_v32_apply, val_main_v30_apply, val_main_v27_apply, val_main_v29_apply,
    val_main_v25_apply, val_main_v23_apply, val_main_v26_apply, val_main_v24_apply, val_main_v28_apply,
    val_main_v31_apply, val_main_cst_10_apply, val_main_cst_11_apply]
  have e1 : idx_main_v23 (idx_main_v25 (ix4 b c i j)) = ix3 b c i :=
    funext fun a => by match a with | ⟨0, _⟩ => rfl | ⟨1, _⟩ => rfl | ⟨2, _⟩ => rfl
  have e2 : idx_main_v24 (idx_main_v26 (ix4 b c i j)) = ix3 b c j :=
    funext fun a => by match a with | ⟨0, _⟩ => rfl | ⟨1, _⟩ => rfl | ⟨2, _⟩ => rfl
  rw [e1, e2, v19_at, v21_at, v22_at]
  rfl

/-- Over the columns `j`: the least distance from row `i` of the first slab to a row of the second. -/
theorem v34_at (x y : (⟨S32x3x512x512, .f32⟩ : BufTy).Contents (Elt Ideal)) (b : Fin 32) (c : Fin 3) (i : Fin 512) :
    val_main_v34 (F := Ideal) x y (ix3 b c i)
      = (Finset.univ : Finset (Fin 512)).fold min (Ideal.ofBits .f32 0x7F800000#32) fun j =>
          mDist (slab x b c) (slab y b c) i j := by
  have h : S32x3x512x512.Reduces [3] S32x3x512 := by decide
  unfold val_main_v34
  refine (Host.reduce_eq_fold_single (FloatOps.minimumf (F := Ideal) (φ := .f32)) (val_main_v33 (F := Ideal) x y)
    (val_main_cst_12 (F := Ideal)) reducesTo_S32x3x512x512_S32x3x512_d3 h h_S_ (ix3 b c i)).trans ?_
  rw [val_main_cst_12_apply, Ideal.ofBits_def]
  refine Finset.fold_congr fun k _ => ?_
  rw [Function.comp_apply]
  have e : h.lift (ix3 b c i) k = ix4 b c i k :=
    funext fun a => Fin.ext (by match a with | ⟨0, _⟩ => rfl | ⟨1, _⟩ => rfl | ⟨2, _⟩ => rfl | ⟨3, _⟩ => rfl)
  rw [e]
  exact v33_at x y b c i k

/-- Over the rows `i`: the least distance from row `j` of the second slab to a row of the first. -/
theorem v36_at (x y : (⟨S32x3x512x512, .f32⟩ : BufTy).Contents (Elt Ideal)) (b : Fin 32) (c : Fin 3) (j : Fin 512) :
    val_main_v36 (F := Ideal) x y (ix3 b c j)
      = (Finset.univ : Finset (Fin 512)).fold min (Ideal.ofBits .f32 0x7F800000#32) fun i =>
          mDist (slab x b c) (slab y b c) i j := by
  have h : S32x3x512x512.Reduces [2] S32x3x512 := by decide
  unfold val_main_v36
  refine (Host.reduce_eq_fold_single (FloatOps.minimumf (F := Ideal) (φ := .f32)) (val_main_v33 (F := Ideal) x y)
    (val_main_cst_14 (F := Ideal)) reducesTo_S32x3x512x512_S32x3x512_d2 h h_S_ (ix3 b c j)).trans ?_
  rw [val_main_cst_14_apply, Ideal.ofBits_def]
  refine Finset.fold_congr fun k _ => ?_
  rw [Function.comp_apply]
  have e : h.lift (ix3 b c j) k = ix4 b c k j :=
    funext fun a => Fin.ext (by match a with | ⟨0, _⟩ => rfl | ⟨1, _⟩ => rfl | ⟨2, _⟩ => rfl | ⟨3, _⟩ => rfl)
  rw [e]
  exact v33_at x y b c k j

/-- The greatest, over the rows of the first slab, of the least distances to the second. -/
theorem v35_at (x y : (⟨S32x3x512x512, .f32⟩ : BufTy).Contents (Elt Ideal)) (b : Fin 32) (c : Fin 3) :
    val_main_v35 (F := Ideal) x y (ix2 b c)
      = (Finset.univ : Finset (Fin 512)).fold max (Ideal.ofBits .f32 0xFF800000#32) fun i =>
          (Finset.univ : Finset (Fin 512)).fold min (Ideal.ofBits .f32 0x7F800000#32) fun j =>
            mDist (slab x b c) (slab y b c) i j := by
  have h : S32x3x512.Reduces [2] S32x3 := by decide
  unfold val_main_v35
  refine (Host.reduce_eq_fold_single (FloatOps.maximumf (F := Ideal) (φ := .f32)) (val_main_v34 (F := Ideal) x y)
    (val_main_cst_13 (F := Ideal)) reducesTo_S32x3x512_S32x3_d2 h h_S_ (ix2 b c)).trans ?_
  rw [val_main_cst_13_apply, Ideal.ofBits_def]
  refine Finset.fold_congr fun k _ => ?_
  rw [Function.comp_apply]
  have e : h.lift (ix2 b c) k = ix3 b c k :=
    funext fun a => Fin.ext (by match a with | ⟨0, _⟩ => rfl | ⟨1, _⟩ => rfl | ⟨2, _⟩ => rfl)
  rw [e]
  exact v34_at x y b c k

/-- The greatest, over the rows of the second slab, of the least distances to the first. -/
theorem v37_at (x y : (⟨S32x3x512x512, .f32⟩ : BufTy).Contents (Elt Ideal)) (b : Fin 32) (c : Fin 3) :
    val_main_v37 (F := Ideal) x y (ix2 b c)
      = (Finset.univ : Finset (Fin 512)).fold max (Ideal.ofBits .f32 0xFF800000#32) fun j =>
          (Finset.univ : Finset (Fin 512)).fold min (Ideal.ofBits .f32 0x7F800000#32) fun i =>
            mDist (slab x b c) (slab y b c) i j := by
  have h : S32x3x512.Reduces [2] S32x3 := by decide
  unfold val_main_v37
  refine (Host.reduce_eq_fold_single (FloatOps.maximumf (F := Ideal) (φ := .f32)) (val_main_v36 (F := Ideal) x y)
    (val_main_cst_15 (F := Ideal)) reducesTo_S32x3x512_S32x3_d2 h h_S_ (ix2 b c)).trans ?_
  rw [val_main_cst_15_apply, Ideal.ofBits_def]
  refine Finset.fold_congr fun k _ => ?_
  rw [Function.comp_apply]
  have e : h.lift (ix2 b c) k = ix3 b c k :=
    funext fun a => Fin.ext (by match a with | ⟨0, _⟩ => rfl | ⟨1, _⟩ => rfl | ⟨2, _⟩ => rfl)
  rw [e]
  exact v36_at x y b c k

/-- (d) The reference's per-slab array is the specification's symmetric Hausdorff distance of the two slabs. -/
theorem v38_eq (x y : (⟨S32x3x512x512, .f32⟩ : BufTy).Contents (Elt Ideal)) :
    val_main_v38 (F := Ideal) x y = hdBC x y := by
  funext j
  obtain ⟨b, c, rfl⟩ : ∃ b c, j = ix2 b c := ⟨j 0, j 1, eq_ix2 j⟩
  show max (val_main_v35 (F := Ideal) x y (ix2 b c)) (val_main_v37 (F := Ideal) x y (ix2 b c))
    = mHd (slab x b c) (slab y b c)
  rw [v35_at, v37_at]
  rfl

/-- The reference program computes the specification's loss. -/
theorem ref_eq (x y : (⟨S32x3x512x512, .f32⟩ : BufTy).Contents (Elt Ideal)) :
    val_main_v43 (F := Ideal) x y
      = Cert.Loss.loss reducesTo_S32_S_d0 reducesTo_S32x3_S_d0_1 bcast_S_S32 h_S_ x y := by
  rw [ref_tail, v3_eq, v4_eq, v5_eq, v38_eq]
  rfl

end Cert.Loss.Ref

end
-- ==== Proof.lean ====
/-
  The proof of `Cert.Claim` for the combined dice / Hausdorff loss over two [32, 3, 512, 512] arrays.

  Both programs compute, over the extended reals, `Cert.Loss.loss` of the two argument arrays (Proof/Spec.lean): per batch
  entry and channel the sum of products, the two totals and the symmetric Hausdorff distance between the rows of the two
  512 × 512 slabs; per batch entry a dice ratio of the sums added over the channels; the weighted sum of the two means.
  * The kernel: at grid point `(b, c)` the body reduces the two `(b, c)` slabs to one row of four meaningful lanes
    (Proof/Payload.lean); the 96 rows tile the result array (Proof/Blocks.lean); the operations after the region cut the four
    lanes out, add three of them over the channels and finish (Proof/Tail.lean).
  * The reference: the same sums taken over the whole flattened `[32, 786432]` arrays, which is the sum over channel, row and
    column in the row-major order, and the same distances taken on the whole four-dimensional arrays (Proof/RefSide.lean).
  No law beyond commutativity and associativity of the extended reals' addition is used, so the precondition is never opened.
  The three frames are the generated ones (the reference's is its generated run with the result dropped); the idealization
  rewrote nothing, so `preserves` is trivial.
-/
import proofs.«155665_j44796508897917_2_alg».proof.Defs
import proofs.«155665_j44796508897917_2_alg».proof.Proof.Gen.Kernel
import proofs.«155665_j44796508897917_2_alg».proof.Proof.Gen.Kernel.Skeleton
import proofs.«155665_j44796508897917_2_alg».proof.Proof.Gen.Kernel.Launch
import proofs.«155665_j44796508897917_2_alg».proof.Proof.Gen.Kernel.Points
import proofs.«155665_j44796508897917_2_alg».proof.Proof.Gen.Kernel.Frame
import proofs.«155665_j44796508897917_2_alg».proof.Proof.Gen.KernelIdeal
import proofs.«155665_j44796508897917_2_alg».proof.Proof.Gen.KernelIdeal.Skeleton
import proofs.«155665_j44796508897917_2_alg».proof.Proof.Gen.KernelIdeal.Launch
import proofs.«155665_j44796508897917_2_alg».proof.Proof.Gen.KernelIdeal.Points
import proofs.«155665_j44796508897917_2_alg».proof.Proof.Gen.KernelIdeal.Frame
import proofs.«155665_j44796508897917_2_alg».proof.Proof.Gen.ReferenceIdeal
import proofs.«155665_j44796508897917_2_alg».proof.Proof.Gen.Pre_finite_inputs
import proofs.«155665_j44796508897917_2_alg».proof.Proof.Gen.ReferenceIdeal.Run
import proofs.«155665_j44796508897917_2_alg».proof.Proof.Gen.ReferenceIdeal.Read
import proofs.«155665_j44796508897917_2_alg».proof.Proof.Tail
import proofs.«155665_j44796508897917_2_alg».proof.Proof.Payload
import proofs.«155665_j44796508897917_2_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

open Cert.KernelIdeal Cert.KernelIdeal.Gen in
/-- The idealized kernel's run: its result buffer ends at the loss of the two argument arrays, which end unchanged. The
    result buffer is none of the region's arrays, so it holds what the operations after the region leave there. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v28)
        = Cert.Loss.loss reducesTo_S32_S_d0 reducesTo_S32x3_S_d0_1 bcast_S_S32 h_S_
            (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v28 (Pipeline.mem_restRefs_of main_v28 rfl (fun w => by fin_cases w <;> decide))).trans
        (Cert.Loss.Region.tail_eq m (fun x0 x1 => Cert.Loss.Body.out_lane0 x0 x1) (fun x0 x1 => Cert.Loss.Body.out_lane1 x0 x1)
          (fun x0 x1 => Cert.Loss.Body.out_lane2 x0 x1) (fun x0 x1 => Cert.Loss.Body.out_lane3 x0 x1) c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- The two idealized programs, from memories agreeing on the arguments, end with the same result: the loss of the arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.Loss.Ref.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
